-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x1000 : Shape := ⟨2, ![16384, 1000]⟩
abbrev S64x1000 : Shape := ⟨2, ![64, 1000]⟩
abbrev S1000 : Shape := ⟨1, ![1000]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x1000 : S_.BroadcastsInDim S16384x1000 (![] : Fin 0 → Fin S16384x1000.rank)
  reducesTo_S16384x1000_S_d0_1 : S16384x1000.ReducesTo [0, 1] S_
  bcast_S_S64x1000 : S_.BroadcastsInDim S64x1000 (![] : Fin 0 → Fin S64x1000.rank)
  reducesTo_S64x1000_S_d0_1 : S64x1000.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg2 : IVec S16384x1000 32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_c_6 : IVec S_ 32 := constantI S_ 32 0#32
  let main_v19 : IVec S16384x1000 32 := broadcastInDim S16384x1000 ![] bcast_S_S16384x1000 main_c_6
  let main_v20 : IVec S16384x1000 1 := cmpi .eq main_arg2 main_v19
  let main_c_7 : IVec S_ 32 := constantI S_ 32 1#32
  let main_v21 : IVec S16384x1000 32 := broadcastInDim S16384x1000 ![] bcast_S_S16384x1000 main_c_7
  let main_v22 : IVec S16384x1000 1 := cmpi .eq main_arg2 main_v21
  let main_v23 : IVec S16384x1000 1 := ori main_v20 main_v22
  let main_c_8 : IVec S_ 1 := constantI S_ 1 1#1
  let main_v24 : IVec S_ 1 := (fun x v => Host.reduce IntOp.andi x v reducesTo_S16384x1000_S_d0_1 h_S_) main_v23 main_c_8
  let main_v25 : IVec S_ 1 := andi main_v18 main_v24
  main_v25

def fn {F : FTy → Type} [FloatOps F] (main_arg0 : FVec F S16384x64 .f32) (main_arg1 : FVec F S16384x1000 .f32) (main_arg2 : IVec S16384x1000 32) (main_arg3 : FVec F S64x1000 .f32) (main_arg4 : FVec F S1000 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x1000 .f32 := Host.absf main_arg1
  let main_cst_0 : FVec F S_ .f32 := constant S_ .f32 0x7F800000#32
  let main_v5 : FVec F S16384x1000 .f32 := broadcastInDim S16384x1000 ![] bcast_S_S16384x1000 main_cst_0
  let main_v6 : IVec S16384x1000 1 := cmpf .olt main_v4 main_v5
  let main_c_1 : IVec S_ 1 := constantI S_ 1 1#1
  let main_v7 : IVec S_ 1 := (fun x v => Host.reduce IntOp.andi x v reducesTo_S16384x1000_S_d0_1 h_S_) main_v6 main_c_1
  let main_v8 : IVec S_ 1 := andi main_v3 main_v7
  let main_v9 : FVec F S64x1000 .f32 := Host.absf main_arg3
  let main_cst_2 : FVec F S_ .f32 := constant S_ .f32 0x7F800000#32
  let main_v10 : FVec F S64x1000 .f32 := broadcastInDim S64x1000 ![] bcast_S_S64x1000 main_cst_2
  let main_v11 : IVec S64x1000 1 := cmpf .olt main_v9 main_v10
  let main_c_3 : IVec S_ 1 := constantI S_ 1 1#1
  let main_v12 : IVec S_ 1 := (fun x v => Host.reduce IntOp.andi x v reducesTo_S64x1000_S_d0_1 h_S_) main_v11 main_c_3
  let main_v13 : IVec S_ 1 := andi main_v8 main_v12
  let main_v14 : FVec F S1000 .f32 := Host.absf main_arg4
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg2 main_v13 main_v16
-- ==== Kernel.lean ====
abbrev S16384x64 : Shape := ⟨2, ![16384, 64]⟩
abbrev S16384x1000 : Shape := ⟨2, ![16384, 1000]⟩
abbrev S64x1000 : Shape := ⟨2, ![64, 1000]⟩
abbrev S1000 : Shape := ⟨1, ![1000]⟩
abbrev S1x1000 : Shape := ⟨2, ![1, 1000]⟩
abbrev S512x64 : Shape := ⟨2, ![512, 64]⟩
abbrev S512x1000 : Shape := ⟨2, ![512, 1000]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x64, .f32⟩
  | .hbm, ⟨1, _⟩ => ⟨S16384x1000, .f32⟩
  | .hbm, ⟨2, _⟩ => ⟨S16384x1000, .i32⟩
  | .hbm, ⟨3, _⟩ => ⟨S64x1000, .f32⟩
  | .hbm, ⟨4, _⟩ => ⟨S1000, .f32⟩
  | .hbm, ⟨5, _⟩ => ⟨S1x1000, .f32⟩
  | .hbm, ⟨6, _⟩ => ⟨S16384x1000, .f32⟩
  | .local _ .vmem, ⟨0, _⟩ => ⟨S512x64, .f32⟩
  | .local _ .vmem, ⟨1, _⟩ => ⟨S512x64, .f32⟩
  | .local _ .vmem, ⟨2, _⟩ => ⟨S512x1000, .f32⟩
  | .local _ .vmem, ⟨3, _⟩ => ⟨S512x1000, .f32⟩
  | .local _ .vmem, ⟨4, _⟩ => ⟨S512x1000, .i32⟩
  | .local _ .vmem, ⟨5, _⟩ => ⟨S512x1000, .i32⟩
  | .local _ .vmem, ⟨6, _⟩ => ⟨S64x1000, .f32⟩
  | .local _ .vmem, ⟨7, _⟩ => ⟨S1x1000, .f32⟩
  | .local _ .vmem, ⟨8, _⟩ => ⟨S512x1000, .f32⟩
  | .local _ .vmem, ⟨9, _⟩ => ⟨S512x1000, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1000_S1x1000 : S1000.ShapeCasts S1x1000
  inb_S512x64_S512x64_0_0 : ∀ a, (![0, 0] : Fin 2 → Nat) a + S512x64.size a ≤ S512x64.size a
  h_S512x64 : 0 < S512x64.numel
  inb_S64x1000_S64x1000_0_0 : ∀ a, (![0, 0] : Fin 2 → Nat) a + S64x1000.size a ≤ S64x1000.size a
  h_S64x1000 : 0 < S64x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  reduces_S512x1000_S512 : S512x1000.Reduces [1] S512
  shapeCasts_S512_S512x1 : S512.ShapeCasts S512x1
  broadcasts_S512x1_S512x1000 : S512x1.Broadcasts S512x1000
  inb_S512x1000_S512x1000_0_0 : ∀ a, (![0, 0] : Fin 2 → Nat) a + S512x1000.size a ≤ S512x1000.size a
  h_S512x1000 : 0 < S512x1000.numel
  iota_S512x1000_d1_w32 : S512x1000.Iotas .tc 32 [1]
  dot_S512x64_S64x1000_S512x1000_1_0_0_1_n_n_wf : DotDims.WF S512x64 S64x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S16384x64.size a
  hwx0_0 : ∀ i : grid0.Coords, EltTy.bits .f32 = 32 ∨ (Rect.block (s := S16384x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S16384x1000.size a
  hwx0_1 : ∀ i : grid0.Coords, EltTy.bits .f32 = 32 ∨ (Rect.block (s := S16384x1000) S512x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1000.size a ≤ S16384x1000.size a
  hwx0_2 : ∀ i : grid0.Coords, EltTy.bits .i32 = 32 ∨ (Rect.block (s := S16384x1000) S512x1000.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1000.size a ≤ S64x1000.size a
  hwx0_3 : ∀ i : grid0.Coords, EltTy.bits .f32 = 32 ∨ (Rect.block (s := S64x1000) S64x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1000.size a ≤ S1x1000.size a
  hwx0_4 : ∀ i : grid0.Coords, EltTy.bits .f32 = 32 ∨ (Rect.block (s := S1x1000) S1x1000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1000.size a ≤ S16384x1000.size a
  hwx0_5 : ∀ i : grid0.Coords, EltTy.bits .f32 = 32 ∨ (Rect.block (s := S16384x1000) S512x1000.size (cc0_transform_5 i) (hinb0_5 i)).WholeWords (EltTy.packing .f32)

variable [Facts₀]

def dot_S512x64_S64x1000_S512x1000_1_0_0_1_n_n : DotDims S512x64 S64x1000 S512x1000 where
  lhsContracting := [1]
  rhsContracting := [0]
  lhsNonContracting := [0]
  rhsNonContracting := [1]
  lhsBatch := []
  rhsBatch := []
  wf := dot_S512x64_S64x1000_S512x1000_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x1000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x1000 : Shape := ⟨2, ![16384, 1000]⟩
abbrev S64x1000 : Shape := ⟨2, ![64, 1000]⟩
abbrev S1000 : Shape := ⟨1, ![1000]⟩
abbrev S1x1000 : Shape := ⟨2, ![1, 1000]⟩
abbrev S_ : Shape := ⟨0, ![]⟩
abbrev S16384 : Shape := ⟨1, ![16384]⟩
abbrev S16384x1 : Shape := ⟨2, ![16384, 1]⟩
abbrev S1 : Shape := ⟨1, ![1]⟩

abbrev nBuf : Space → Nat
  | .hbm => 42
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x1000, .f32⟩
  | .hbm, ⟨2, _⟩ => ⟨S16384x1000, .i32⟩
  | .hbm, ⟨3, _⟩ => ⟨S64x1000, .f32⟩
  | .hbm, ⟨4, _⟩ => ⟨S1000, .f32⟩
  | .hbm, ⟨5, _⟩ => ⟨S16384x1000, .f32⟩
  | .hbm, ⟨6, _⟩ => ⟨S1x1000, .f32⟩
  | .hbm, ⟨7, _⟩ => ⟨S16384x1000, .f32⟩
  | .hbm, ⟨8, _⟩ => ⟨S16384x1000, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x1000, .f32⟩
  | .hbm, ⟨16, _⟩ => ⟨S16384x1000, .f32⟩
  | .hbm, ⟨17, _⟩ => ⟨S16384x1000, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x1000, .f32⟩
  | .hbm, ⟨22, _⟩ => ⟨S16384x1000, .f32⟩
  | .hbm, ⟨23, _⟩ => ⟨S_, .f32⟩
  | .hbm, ⟨24, _⟩ => ⟨S16384x1000, .f32⟩
  | .hbm, ⟨25, _⟩ => ⟨S16384x1000, .f32⟩
  | .hbm, ⟨26, _⟩ => ⟨S_, .f32⟩
  | .hbm, ⟨27, _⟩ => ⟨S16384x1000, .f32⟩
  | .hbm, ⟨28, _⟩ => ⟨S16384x1000, .f32⟩
  | .hbm, ⟨29, _⟩ => ⟨S16384x1000, .f32⟩
  | .hbm, ⟨30, _⟩ => ⟨S16384x1000, .f32⟩
  | .hbm, ⟨31, _⟩ => ⟨S_, .i32⟩
  | .hbm, ⟨32, _⟩ => ⟨S1, .i32⟩
  | .hbm, ⟨33, _⟩ => ⟨S_, .f32⟩
  | .hbm, ⟨34, _⟩ => ⟨S16384, .f32⟩
  | .hbm, ⟨35, _⟩ => ⟨S16384x1000, .f32⟩
  | .hbm, ⟨36, _⟩ => ⟨S16384x1000, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1000, .f32⟩
  | .hbm, ⟨41, _⟩ => ⟨S16384x1000, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S_S16384x1000 : S_.BroadcastsInDim S16384x1000 (![] : Fin 0 → Fin S16384x1000.rank)
  bcast_S_S1 : S_.BroadcastsInDim S1 (![] : Fin 0 → Fin S1.rank)
  dot_S16384x64_S64x1000_S16384x1000_1_0_0_1_n_n_wf : DotDims.WF S16384x64 S64x1000 S16384x1000 [1] [0] [0] [1] [] []
  scatter_S16384x1000_S1_S16384_0_1_1_0_wf : ScatterDims.WF S16384x1000 S1 S16384 [0] [1] [1] 0

variable [Facts₀]

def dot_S16384x64_S64x1000_S16384x1000_1_0_0_1_n_n : DotDims S16384x64 S64x1000 S16384x1000 where
  lhsContracting := [1]
  rhsContracting := [0]
  lhsNonContracting := [0]
  rhsNonContracting := [1]
  lhsBatch := []
  rhsBatch := []
  wf := dot_S16384x64_S64x1000_S16384x1000_1_0_0_1_n_n_wf
def scatter_S16384x1000_S1_S16384_0_1_1_0 : ScatterDims S16384x1000 S1 S16384 where
  updateWindowDims := [0]
  insertedWindowDims := [1]
  scatterDimsToOperandDims := [1]
  indexVectorDim := 0
  wf := scatter_S16384x1000_S1_S16384_0_1_1_0_wf

class Facts : Prop extends Facts₀ where

variable [Facts]
-- ==== Proof.Spec.lean ====
/-
  The mathematics of the policy head, stated once, free of any program.

  One row of the batch: from the row's logits lg (one per action) the soft-max weights are
  exp (lg a − M) / Σₖ exp (lg k − M), M the row's greatest logit; they are mixed with the row's uniform draws,
  0.1 · un a + 0.9 · weight a (the two factors being the float words for 0.1 and 0.9, whatever they denote);
  an action is kept when its mask word is not zero or it is the last action (number 999), and gets 0 otherwise;
  the kept values are divided by their sum over the row.  The whole result is that row function applied to every
  row of the batch, the row's logits being a row of s · W plus the bias.

  The law that joins the two programs: one of them multiplies by the mask read as a number, with the last action's
  factor set to one, the other selects; on a mask word that is 0 or 1 the product and the selection are one value
  (0 · p = 0 and 1 · p = p on every extended real, the infinities included).
-/
import Idealize.ShloMosaic.PureOps.Ideal
import Idealize.ShloMosaic.PureOps.IdealRules
import Idealize.ShloMosaic.Lib.ValueIdx

noncomputable section

open scoped BigOperators
open Idealize.ShloMosaic Idealize.ShloMosaic.ValueIdx

namespace Cert.Spec

/-- The float words of the computation, as the extended reals they denote: the mixing weight 0.1, -/
abbrev wUnif : EReal := Ideal.ofBits .f32 0x3DCCCCCD#32
/-- its complement 0.9, -/
abbrev wSoft : EReal := Ideal.ofBits .f32 0x3F666666#32
/-- minus infinity, from which a row's maximum is taken, -/
abbrev negInf : EReal := Ideal.ofBits .f32 0xFF800000#32
/-- and zero. -/
abbrev zeroW : EReal := Ideal.ofBits .f32 0x00000000#32

/-- The greatest logit of a row (from minus infinity). -/
def rowMax (lg : Fin 1000 → EReal) : EReal := (Finset.univ : Finset (Fin 1000)).fold max negInf lg

/-- The shifted exponential of action a. -/
def rowExp (lg : Fin 1000 → EReal) (a : Fin 1000) : EReal := Ideal.exp (lg a - rowMax lg)

/-- The mixture of the uniform draw and the soft-max weight of action a. -/
def rowMix (lg un : Fin 1000 → EReal) (a : Fin 1000) : EReal :=
  wUnif * un a + wSoft * Ideal.div (rowExp lg a) (∑ k : Fin 1000, rowExp lg k)

/-- The mixture where the action is kept (mask word not zero, or the last action), zero elsewhere. -/
def rowKept (lg un : Fin 1000 → EReal) (mk : Fin 1000 → BitVec 32) (a : Fin 1000) : EReal :=
  if mk a ≠ 0#32 ∨ a.val = 999 then rowMix lg un a else zeroW

/-- The kept values divided by their sum over the row. -/
def rowOut (lg un : Fin 1000 → EReal) (mk : Fin 1000 → BitVec 32) (a : Fin 1000) : EReal :=
  Ideal.div (rowKept lg un mk a) (∑ k : Fin 1000, rowKept lg un mk k)

/-- Logit (r, a): row r of s against column a of W, plus the bias of a. -/
def logit (s : (⟨2, ![16384, 64]⟩ : Shape).Idx → EReal) (W : (⟨2, ![64, 1000]⟩ : Shape).Idx → EReal)
    (b : (⟨1, ![1000]⟩ : Shape).Idx → EReal) (r : Fin 16384) (a : Fin 1000) : EReal :=
  (∑ k : Fin 64, s (ix2 r k) * W (ix2 k a)) + b (ix1 a)

/-- THE RESULT: the row function on every row of the batch. -/
def policy (s : (⟨2, ![16384, 64]⟩ : Shape).Idx → EReal) (unif : (⟨2, ![16384, 1000]⟩ : Shape).Idx → EReal)
    (mask : (⟨2, ![16384, 1000]⟩ : Shape).Idx → BitVec 32) (W : (⟨2, ![64, 1000]⟩ : Shape).Idx → EReal)
    (b : (⟨1, ![1000]⟩ : Shape).Idx → EReal) : (⟨2, ![16384, 1000]⟩ : Shape).Idx → EReal :=
  fun i => rowOut (logit s W b (i 0)) (fun a => unif (ix2 (i 0) a)) (fun a => mask (ix2 (i 0) a)) (i 1)

/-- The word for 1.0 denotes one, the zero word zero, the word for minus infinity the bottom element. -/
theorem one_word : Ideal.ofBits .f32 0x3F800000#32 = 1 := IdealRules.sign_bit.ideal_onePat .f32
theorem zero_word : zeroW = 0 := IdealRules.sign_bit.ideal_zero .f32
theorem negInf_bot : negInf = ⊥ := by simp [negInf, Ideal.ofBits, Ideal.ieee]

/-- A fold of max from b is at least b, so taking the maximum with b once more changes nothing. -/
theorem max_fold_self {ι : Type} (t : Finset ι) (b : EReal) (f : ι → EReal) : max b (t.fold max b f) = t.fold max b f :=
  max_eq_right ((Finset.le_fold_max b).mpr (Or.inl le_rfl))

/-- THE MASKING LAW. On a mask word that is 0 or 1, the product of p with the mask read as a signed number — the last
    action's factor being one instead — is the selection "p where the word is not zero or the action is the last,
    zero elsewhere". -/
theorem mask_mul_eq_select (w : BitVec 32) (hw : w = 0#32 ∨ w = 1#32) (a : Fin 1000) (p : EReal) :
    (if a.val = 999 then Ideal.ofBits .f32 0x3F800000#32 else ((w.toInt : ℝ) : EReal)) * p
      = if w ≠ 0#32 ∨ a.val = 999 then p else zeroW := by
  by_cases ha : a.val = 999
  · rw [if_pos ha, if_pos (Or.inr ha), one_word, one_mul]
  · rw [if_neg ha]
    rcases hw with rfl | rfl
    · rw [if_neg (by rintro (h | h); exact h rfl; exact ha h), zero_word]
      simp
    · rw [if_pos (Or.inl (by decide))]
      simp

end Cert.Spec

end
-- ==== Proof.KernelRow.lean ====
/-
  The kernel's body at one element.  Its arithmetic is a chain of stages — logits (the block of s against W, plus
  the bias row), each row's greatest logit, the shifted exponentials, their row sums, the mixture with the block
  of uniform draws, the validity bit (mask word not zero, or the last column), the selection, its row sums, the
  quotient — and each stage, read at row p and column q of the block, is the specification's row function of
  row p of the loaded blocks.  A row reduction is kept as a column and spread back over the row: read at (p, q)
  it is the reduction of row p.
-/
import proofs.«170001_g53102975648383_cont_9to1c4b_338_2_alg».proof.Proof.Gen.KernelIdeal.Skeleton
import proofs.«170001_g53102975648383_cont_9to1c4b_338_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Affine

noncomputable section

open scoped BigOperators

namespace Cert.KernelRow

open Cert.KernelIdeal Cert.KernelIdeal.Gen Idealize.ShloMosaic Idealize.ShloMosaic.ValueIdx Cert.Spec

section Layout
variable {α : Type}

/-- A length-a vector viewed as an a × 1 column, read at (i, u), is the vector at i. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column spread over b columns, read at (p, c), is the column at p. -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The stages -/

/-- The logits of a block: the block of s against W, plus the bias row spread over the rows. -/
def kLogits (v0 : FVec Ideal S512x64 .f32) (v1 : FVec Ideal S64x1000 .f32) (v3 : FVec Ideal S1x1000 .f32) :
    FVec Ideal S512x1000 .f32 :=
  addf (matmul dot_S512x64_S64x1000_S512x1000_1_0_0_1_n_n none v0 v1 (constant S512x1000 .f32 0x00000000#32))
    (broadcastTo S512x1000 (shapeCast S1x1000 v3 shapeCasts_S1x1000_S1x1000) broadcasts_S1x1000_S512x1000)

/-- Each row's maximum (from minus infinity), spread back over the row. -/
def kRowMax (v : FVec Ideal S512x1000 .f32) : FVec Ideal S512x1000 .f32 :=
  broadcastTo S512x1000 (shapeCast S512x1 (multiReduction .maximumf [1] S512 v 0xFF800000#32 reduces_S512x1000_S512 (.inl rfl) rfl)
    shapeCasts_S512_S512x1) broadcasts_S512x1_S512x1000

/-- Each row's sum, spread back over the row. -/
def kRowSum (v : FVec Ideal S512x1000 .f32) : FVec Ideal S512x1000 .f32 :=
  broadcastTo S512x1000 (shapeCast S512x1 (multiReduction .add [1] S512 v 0x00000000#32 reduces_S512x1000_S512 (.inl rfl) rfl)
    shapeCasts_S512_S512x1) broadcasts_S512x1_S512x1000

/-- The shifted exponentials. -/
def kExp (v : FVec Ideal S512x1000 .f32) : FVec Ideal S512x1000 .f32 := exp (subf v (kRowMax v))

/-- The mixture of the uniform draws and the soft-max weights. -/
def kMix (e u : FVec Ideal S512x1000 .f32) : FVec Ideal S512x1000 .f32 :=
  addf (mulf (broadcast S512x1000 (Scalar.ofBits (F := Ideal) .f32 0x3DCCCCCD#32)) u)
    (mulf (broadcast S512x1000 (Scalar.ofBits (F := Ideal) .f32 0x3F666666#32)) (divf e (kRowSum e)))

/-- The validity bit: the mask word is not zero, or the column is the last one. -/
def kValid (w : IVec S512x1000 32) : IVec S512x1000 1 :=
  ori (cmpi .ne w (broadcast S512x1000 0#32))
    (cmpi .eq (iota .tc S512x1000 32 [1] iota_S512x1000_d1_w32) (broadcast S512x1000 999#32))

/-- The selection: the value where the bit is set, zero elsewhere. -/
def kKept (c : IVec S512x1000 1) (v : FVec Ideal S512x1000 .f32) : FVec Ideal S512x1000 .f32 :=
  select c v (broadcast S512x1000 (Scalar.ofBits (F := Ideal) .f32 0x00000000#32))

/-- The quotient by the row sums. -/
def kOut (v : FVec Ideal S512x1000 .f32) : FVec Ideal S512x1000 .f32 := divf v (kRowSum v)

/-- The body's stored value is the composition of the stages. -/
theorem pay_eq (v0 : Vec Ideal S512x64 .f32) (v1 : Vec Ideal S64x1000 .f32) (v3 : Vec Ideal S1x1000 .f32)
    (v14 : Vec Ideal S512x1000 .f32) (v23 : Vec Ideal S512x1000 .i32) :
    k0_pay1 (F := Ideal) v0 v1 v3 v14 v23 = kOut (kKept (kValid v23) (kMix (kExp (kLogits v0 v1 v3)) v14)) := rfl

/-! ## Each stage at row p, column q -/

/-- Coordinate 0 of the left operand's index of the product is the result's row. -/
theorem lhs_row (i : S512x1000.Idx) (c : dot_S512x64_S64x1000_S512x1000_1_0_0_1_n_n.contr.Idx) :
    (dot_S512x64_S64x1000_S512x1000_1_0_0_1_n_n.lhsIdx i c 0).val = (i 0).val := by
  unfold DotDims.lhsIdx
  rw [dif_neg (show ¬(0 : Fin S512x64.rank) ∈ dot_S512x64_S64x1000_S512x1000_1_0_0_1_n_n.lhsBatch by decide),
    dif_pos (show (0 : Fin S512x64.rank) ∈ dot_S512x64_S64x1000_S512x1000_1_0_0_1_n_n.lhsNonContracting by decide)]
  rfl

/-- Coordinate 1 of the right operand's index of the product is the result's column. -/
theorem rhs_col (i : S512x1000.Idx) (c : dot_S512x64_S64x1000_S512x1000_1_0_0_1_n_n.contr.Idx) :
    (dot_S512x64_S64x1000_S512x1000_1_0_0_1_n_n.rhsIdx i c 1).val = (i 1).val := by
  unfold DotDims.rhsIdx
  rw [dif_neg (show ¬(1 : Fin S64x1000.rank) ∈ dot_S512x64_S64x1000_S512x1000_1_0_0_1_n_n.rhsBatch by decide),
    dif_pos (show (1 : Fin S64x1000.rank) ∈ dot_S512x64_S64x1000_S512x1000_1_0_0_1_n_n.rhsNonContracting by decide)]
  rfl

/-- The block's logit (p, q): row p of the s block against column q of W, plus the bias of q. -/
theorem kLogits_apply (v0 : FVec Ideal S512x64 .f32) (v1 : FVec Ideal S64x1000 .f32) (v3 : FVec Ideal S1x1000 .f32)
    (p : Fin 512) (q : Fin 1000) :
    kLogits v0 v1 v3 (ix2 p q) = (∑ k : Fin 64, v0 (ix2 p k) * v1 (ix2 k q)) + v3 (ix2 (0 : Fin 1) q) := by
  unfold kLogits
  rw [addf_apply, broadcastTo_1b_ab_apply, shapeCast_self]
  refine congrArg (· + v3 (ix2 (0 : Fin 1) q)) ?_
  refine (Ideal.matmul_constant_zero_apply dot_S512x64_S64x1000_S512x1000_1_0_0_1_n_n none v0 v1 (ix2 p q)).trans ?_
  rw [← Equiv.sum_comp (contrEquiv1 dot_S512x64_S64x1000_S512x1000_1_0_0_1_n_n 64 rfl rfl).symm]
  refine Finset.sum_congr rfl fun k _ => ?_
  have hk := contrEquiv1_symm_val dot_S512x64_S64x1000_S512x1000_1_0_0_1_n_n 64 rfl rfl k
  have el : dot_S512x64_S64x1000_S512x1000_1_0_0_1_n_n.lhsIdx (ix2 p q)
      ((contrEquiv1 dot_S512x64_S64x1000_S512x1000_1_0_0_1_n_n 64 rfl rfl).symm k) = ix2 p k := funext fun a => Fin.ext (by
    match a with
    | ⟨0, _⟩ => exact lhs_row _ _
    | ⟨1, _⟩ => exact (dot_S512x64_S64x1000_S512x1000_1_0_0_1_n_n.lhsIdx_val_of_single rfl _ _).trans hk)
  have er : dot_S512x64_S64x1000_S512x1000_1_0_0_1_n_n.rhsIdx (ix2 p q)
      ((contrEquiv1 dot_S512x64_S64x1000_S512x1000_1_0_0_1_n_n 64 rfl rfl).symm k) = ix2 k q := funext fun a => Fin.ext (by
    match a with
    | ⟨0, _⟩ => exact (dot_S512x64_S64x1000_S512x1000_1_0_0_1_n_n.rhsIdx_val_of_single rfl _ _).trans hk
    | ⟨1, _⟩ => exact rhs_col _ _)
  rw [el, er]

/-- Row p with column k put back is the index (p, k). -/
theorem lift_eq (p : Fin 512) (k : Fin 1000) : reduces_S512x1000_S512.lift (ix1 p) k = ix2 p k :=
  funext fun a => Fin.ext (by match a with | ⟨0, _⟩ => rfl | ⟨1, _⟩ => rfl)

/-- The spread row maximum at (p, q) is the maximum of row p. -/
theorem kRowMax_apply (v : FVec Ideal S512x1000 .f32) (p : Fin 512) (q : Fin 1000) :
    kRowMax v (ix2 p q) = rowMax (fun k => v (ix2 p k)) := by
  unfold kRowMax
  refine (broadcastTo_col_apply _ _ p q).trans ?_
  refine (shapeCast_col_apply _ _ p 0).trans ?_
  refine (Ideal.multiReduction_maximumf_single v 0xFF800000#32 reduces_S512x1000_S512 (.inl rfl) rfl (ix1 p)).trans ?_
  unfold rowMax
  have hl : (v ∘ reduces_S512x1000_S512.lift (ix1 p)) = fun k : Fin 1000 => v (ix2 p k) :=
    funext fun k => congrArg v (lift_eq p k)
  rw [hl]
  rfl

/-- The spread row sum at (p, q) is the sum of row p. -/
theorem kRowSum_apply (v : FVec Ideal S512x1000 .f32) (p : Fin 512) (q : Fin 1000) :
    kRowSum v (ix2 p q) = ∑ k : Fin 1000, v (ix2 p k) := by
  unfold kRowSum
  refine (broadcastTo_col_apply _ _ p q).trans ?_
  refine (shapeCast_col_apply _ _ p 0).trans ?_
  refine (Ideal.multiReduction_add_single v 0x00000000#32 reduces_S512x1000_S512 (.inl rfl) rfl (ix1 p)).trans ?_
  exact Finset.sum_congr rfl fun k _ => congrArg v (lift_eq p k)

/-- The shifted exponential at (p, q). -/
theorem kExp_apply (v : FVec Ideal S512x1000 .f32) (p : Fin 512) (q : Fin 1000) :
    kExp v (ix2 p q) = rowExp (fun k => v (ix2 p k)) q := by
  unfold kExp
  show Ideal.exp (v (ix2 p q) - kRowMax v (ix2 p q)) = _
  rw [kRowMax_apply]
  rfl

/-- The mixture at (p, q). -/
theorem kMix_apply (v u : FVec Ideal S512x1000 .f32) (p : Fin 512) (q : Fin 1000) :
    kMix (kExp v) u (ix2 p q) = rowMix (fun k => v (ix2 p k)) (fun k => u (ix2 p k)) q := by
  unfold kMix rowMix
  show wUnif * u (ix2 p q) + wSoft * Ideal.div (kExp v (ix2 p q)) (kRowSum (kExp v) (ix2 p q)) = _
  rw [kRowSum_apply]
  simp only [kExp_apply]

/-- A column number below 1000, as a 32-bit word, is the word 999 exactly when it is 999. -/
theorem col_word_eq (q : Fin 1000) : BitVec.ofNat 32 q.val = 999#32 ↔ q.val = 999 := by
  constructor
  · intro h
    have h' := congrArg BitVec.toNat h
    simp only [BitVec.toNat_ofNat] at h'
    have := q.isLt
    omega
  · intro h; rw [h]

/-- The validity bit at (p, q) is set exactly when the mask word there is not zero or q is the last column. -/
theorem kValid_apply (w : IVec S512x1000 32) (p : Fin 512) (q : Fin 1000) :
    kValid w (ix2 p q) = 1#1 ↔ (w (ix2 p q) ≠ 0#32 ∨ q.val = 999) := by
  unfold kValid
  show IntOp.ori (IntOp.cmpi .ne (w (ix2 p q)) 0#32)
      (IntOp.cmpi .eq (iota .tc S512x1000 32 [1] iota_S512x1000_d1_w32 (ix2 p q)) 999#32) = 1#1 ↔ _
  rw [iota_single_apply, IntOp.ori_eq_one, IntOp.cmpi_ne, IntOp.cmpi_eq]
  exact or_congr Iff.rfl (col_word_eq q)

/-- The selection at (p, q). -/
theorem kKept_apply (v u : FVec Ideal S512x1000 .f32) (w : IVec S512x1000 32) (p : Fin 512) (q : Fin 1000) :
    kKept (kValid w) (kMix (kExp v) u) (ix2 p q)
      = rowKept (fun k => v (ix2 p k)) (fun k => u (ix2 p k)) (fun k => w (ix2 p k)) q := by
  unfold kKept rowKept
  rw [select_apply, kMix_apply]
  by_cases h : w (ix2 p q) ≠ 0#32 ∨ q.val = 999
  · rw [(kValid_apply w p q).mpr h, select_one, if_pos h]
  · rw [eq_zero_of_ne_one (fun hb => h ((kValid_apply w p q).mp hb)), select_zero, if_neg h]
    rfl

/-- The quotient at (p, q). -/
theorem kOut_apply (v u : FVec Ideal S512x1000 .f32) (w : IVec S512x1000 32) (p : Fin 512) (q : Fin 1000) :
    kOut (kKept (kValid w) (kMix (kExp v) u)) (ix2 p q)
      = rowOut (fun k => v (ix2 p k)) (fun k => u (ix2 p k)) (fun k => w (ix2 p k)) q := by
  unfold kOut rowOut
  show Ideal.div (kKept (kValid w) (kMix (kExp v) u) (ix2 p q)) (kRowSum (kKept (kValid w) (kMix (kExp v) u)) (ix2 p q)) = _
  rw [kRowSum_apply, kKept_apply]
  simp only [kKept_apply]

/-- THE BODY AT (p, q): the specification's row function of row p of the loaded blocks — the row's logits from the s
    block, W and the bias row, the row of uniform draws, the row of mask words — at column q. -/
theorem pay_apply (v0 : Vec Ideal S512x64 .f32) (v1 : Vec Ideal S64x1000 .f32) (v3 : Vec Ideal S1x1000 .f32)
    (v14 : Vec Ideal S512x1000 .f32) (v23 : Vec Ideal S512x1000 .i32) (p : Fin 512) (q : Fin 1000) :
    k0_pay1 (F := Ideal) v0 v1 v3 v14 v23 (ix2 p q)
      = rowOut (fun a => (∑ k : Fin 64, v0 (ix2 p k) * v1 (ix2 k a)) + v3 (ix2 (0 : Fin 1) a))
          (fun a => v14 (ix2 p a)) (fun a => v23 (ix2 p a)) q := by
  rw [pay_eq, kOut_apply]
  simp only [kLogits_apply]

end Cert.KernelRow

end
-- ==== Proof.KernelValue.lean ====
/-
  From blocks to the array.  The grid has 32 points; point t stages rows 512·t … 512·t + 511 of s, of the uniform
  draws and of the mask, the whole of W, and the bias as a single row (the host lays the length-1000 bias out as a
  1 × 1000 row before the region), and writes back rows 512·t … 512·t + 511 of the result.  Since the body's value
  at (p, q) of the block depends on row p of the staged blocks only, what point t writes back is block t of the
  specification's whole-array function; the 32 blocks tile the array, so the array ends holding that function.
-/
import proofs.«170001_g53102975648383_cont_9to1c4b_338_2_alg».proof.Proof.Gen.KernelIdeal.Value
import proofs.«170001_g53102975648383_cont_9to1c4b_338_2_alg».proof.Proof.KernelRow
import Idealize.ShloMosaic.Lib.StableHlo.Run
import Idealize.ShloMosaic.Lib.ValueLayout

noncomputable section

open scoped BigOperators

namespace Cert.KernelValue

open Cert.KernelIdeal Cert.KernelIdeal.Gen Idealize.ShloMosaic Idealize.ShloMosaic.TcCoe Idealize.SL.Sem
  Idealize.ShloMosaic.ValueIdx Cert.Spec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows (s, the draws, the mask, the result) are at block
    (t, 0) at point t, the two whole windows (W, the bias row) at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's blocks is a row of the arrays. -/
theorem rowAt_lt (t : Fin cfg0.N) (p : Fin 512) : t.val * 512 + p.val < 16384 := by
  have hN : cfg0.N = 32 := N_0
  have := t.isLt
  have := p.isLt
  omega

/-- Row p of point t's blocks is row 512·t + p of the arrays. -/
def rowAt (t : Fin cfg0.N) (p : Fin 512) : Fin 16384 := ⟨t.val * 512 + p.val, rowAt_lt t p⟩

/-- THE BODY AT A BLOCK ELEMENT, when the staged blocks are rows of arrays s, unif, mask (row p of the blocks being
    row (row p) of the arrays), the whole of W and the bias as one row: the specification at the array element. -/
theorem point_eq (x0 : Vec Ideal S512x64 .f32) (x1 : Vec Ideal S512x1000 .f32) (x2 : Vec Ideal S512x1000 .i32)
    (x3 : Vec Ideal S64x1000 .f32) (x4 : Vec Ideal S1x1000 .f32)
    (s : (⟨2, ![16384, 64]⟩ : Shape).Idx → EReal) (unif : (⟨2, ![16384, 1000]⟩ : Shape).Idx → EReal)
    (mask : (⟨2, ![16384, 1000]⟩ : Shape).Idx → BitVec 32) (W : (⟨2, ![64, 1000]⟩ : Shape).Idx → EReal)
    (b : (⟨1, ![1000]⟩ : Shape).Idx → EReal) (row : Fin 512 → Fin 16384)
    (h0 : ∀ (p : Fin 512) (k : Fin 64), x0 (ix2 p k) = s (ix2 (row p) k))
    (h1 : ∀ (p : Fin 512) (q : Fin 1000), x1 (ix2 p q) = unif (ix2 (row p) q))
    (h2 : ∀ (p : Fin 512) (q : Fin 1000), x2 (ix2 p q) = mask (ix2 (row p) q))
    (h3 : ∀ (k : Fin 64) (q : Fin 1000), x3 (ix2 k q) = W (ix2 k q))
    (h4 : ∀ q : Fin 1000, x4 (ix2 (0 : Fin 1) q) = b (ix1 q))
    (j : S512x1000.Idx) :
    k0_pay1 (F := Ideal) x0 x3 x4 x1 x2 j = policy s unif mask W b (ix2 (row (j 0)) (j 1)) := by
  obtain ⟨p, q, rfl⟩ : ∃ (p : Fin 512) (q : Fin 1000), j = ix2 p q := ⟨j 0, j 1, eq_ix2 j⟩
  rw [KernelRow.pay_apply]
  unfold policy logit
  simp only [h0, h1, h2, h3, h4]

/-! ## The staged blocks are rows of the argument arrays -/

/-- The s block of point t, row p, is row 512·t + p of s. -/
theorem blk_s (c : Dev nD) (t : Fin cfg0.N) (p : Fin 512) (k : Fin 64) :
    iblk m c 0 t (ix2 p k) = (m ((c : Thread nD τ).loc main_arg0) : S16384x64.Idx → EReal) (ix2 (rowAt t p) k) := by
  obtain ⟨e0, e1, -⟩ := idx_facts t
  show V m c main_arg0 (((cfg0.win 0).blk t).view.emb (ix2 p k)) = _
  rw [V_main_arg0 m c]
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 64 + 1 * k.val = k.val; omega

/-- The block of uniform draws of point t, row p, is row 512·t + p of the draws. -/
theorem blk_u (c : Dev nD) (t : Fin cfg0.N) (p : Fin 512) (q : Fin 1000) :
    iblk m c 1 t (ix2 p q) = (m ((c : Thread nD τ).loc main_arg1) : S16384x1000.Idx → EReal) (ix2 (rowAt t p) q) := by
  obtain ⟨-, -, e0, e1, -⟩ := idx_facts t
  show V m c main_arg1 (((cfg0.win 1).blk t).view.emb (ix2 p q)) = _
  rw [V_main_arg1 m c]
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 1000 + 1 * q.val = q.val; omega

/-- The mask block of point t, row p, is row 512·t + p of the mask. -/
theorem blk_m (c : Dev nD) (t : Fin cfg0.N) (p : Fin 512) (q : Fin 1000) :
    iblk m c 2 t (ix2 p q) = (m ((c : Thread nD τ).loc main_arg2) : S16384x1000.Idx → BitVec 32) (ix2 (rowAt t p) q) := by
  obtain ⟨-, -, -, -, e0, e1, -⟩ := idx_facts t
  show V m c main_arg2 (((cfg0.win 2).blk t).view.emb (ix2 p q)) = _
  rw [V_main_arg2 m c]
  refine congrArg _ (funext fun a => Fin.ext ?_)
  match a with
  | ⟨0, _⟩ => show win0_2.index t (0 : Fin 2) * 512 + 1 * p.val = t.val * 512 + p.val; omega
  | ⟨1, _⟩ => show win0_2.index t (1 : Fin 2) * 1000 + 1 * q.val = q.val; omega

/-- The W block of every point is W. -/
theorem blk_w (c : Dev nD) (t : Fin cfg0.N) (k : Fin 64) (q : Fin 1000) :
    iblk m c 3 t (ix2 k q) = (m ((c : Thread nD τ).loc main_arg3) : S64x1000.Idx → EReal) (ix2 k q) := by
  obtain ⟨-, -, -, -, -, -, e0, e1, -⟩ := idx_facts t
  show V m c main_arg3 (((cfg0.win 3).blk t).view.emb (ix2 k q)) = _
  rw [V_main_arg3 m c]
  refine congrArg _ (funext fun a => Fin.ext ?_)
  match a with
  | ⟨0, _⟩ => show win0_3.index t (0 : Fin 2) * 64 + 1 * k.val = k.val; omega
  | ⟨1, _⟩ => show win0_3.index t (1 : Fin 2) * 1000 + 1 * q.val = q.val; omega

/-- The array the bias window stages is the bias laid out as one row by the host. -/
theorem bias_row (c : Dev nD) : (V m c main_call0_v0 : S1x1000.Idx → EReal)
    = shapeCast S1x1000 (m ((c : Thread nD τ).loc main_arg4) : S1000.Idx → EReal) shapeCasts_S1000_S1x1000 := by
  dsimp only [V, hostOps0]
  after_results
  rfl

/-- The bias block of every point, at column q, is the bias of q. -/
theorem blk_b (c : Dev nD) (t : Fin cfg0.N) (q : Fin 1000) :
    iblk m c 4 t (ix2 (0 : Fin 1) q) = (m ((c : Thread nD τ).loc main_arg4) : S1000.Idx → EReal) (ix1 q) := by
  obtain ⟨-, -, -, -, -, -, -, -, e0, e1, -⟩ := idx_facts t
  show V m c main_call0_v0 (((cfg0.win 4).blk t).view.emb (ix2 (0 : Fin 1) q)) = _
  have he : ((cfg0.win 4).blk t).view.emb (ix2 (0 : Fin 1) q) = ix2 (0 : Fin 1) q :=
    funext fun a => Fin.ext (by
      match a with
      | ⟨0, _⟩ => show win0_4.index t (0 : Fin 2) * 1 + 1 * 0 = 0; omega
      | ⟨1, _⟩ => show win0_4.index t (1 : Fin 2) * 1000 + 1 * q.val = q.val; omega)
  rw [he, bias_row m c]
  exact shapeCast_a_1a_apply _ _ 0 q

/-! ## What a point writes back, the cover, the array -/

/-- The specification of the arrays core c is launched with. -/
def result (c : Dev nD) : S16384x1000.Idx → EReal :=
  policy (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT t WRITES BACK is block t of the specification. -/
theorem flushed_eq (c : Dev nD) (t : Fin cfg0.N) :
    (dats m 0 c).flushed 5 t = ((cfg0.win 5).blk t).view.read (Elt Ideal) (result m c) := by
  rw [Value.flushed5 m c t]
  unfold out0_5
  rw [View.canon_unit_zero hz]
  simp only [View.ld_unit_zero (S := S512x64) hz, View.ld_unit_zero (S := S64x1000) hz,
    View.ld_unit_zero (S := S1x1000) hz, View.ld_unit_zero (S := S512x1000) hz]
  funext j
  refine (point_eq (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) (rowAt t)
    (blk_s m c t) (blk_u m c t) (blk_m m c t) (blk_w m c t) (blk_b m c t) j).trans ?_
  obtain ⟨-, -, -, -, -, -, -, -, -, -, e0, e1⟩ := idx_facts t
  show result m c (ix2 (rowAt t (j 0)) (j 1)) = result m c (((cfg0.win 5).blk t).view.emb j)
  refine congrArg _ (funext fun a => Fin.ext ?_)
  match a with
  | ⟨0, _⟩ => show t.val * 512 + (j 0).val = win0_5.index t (0 : Fin 2) * 512 + 1 * (j 0).val; omega
  | ⟨1, _⟩ => show (j 1).val = win0_5.index t (1 : Fin 2) * 1000 + 1 * (j 1).val; omega

/-- An index of the result array is in point t's block iff each coordinate is in the block's range on its axis. -/
theorem mem_blk (t : Fin cfg0.N) (i : S16384x1000.Idx) :
    i ∈ ((cfg0.win 5).blk t).view.set ↔ ∀ a : Fin 2, win0_5.index t a * S512x1000.size a ≤ (i a).val
      ∧ (i a).val < win0_5.index t a * S512x1000.size a + S512x1000.size a := by
  show i ∈ ((View.whole main_v0).slice (win0_5.rect t)).set ↔ _
  rw [View.set_slice_whole, Rect.mem_set_unit]
  exact Iff.rfl

/-- THE COVER: row r of the result is in the block of point r / 512. -/
theorem cover (i : S16384x1000.Idx) :
    ∃ t : Fin cfg0.N, (cfg0.win 5).flush t = true ∧ i ∈ ((cfg0.win 5).blk t).view.set := by
  have hN : cfg0.N = 32 := N_0
  have hi0 : (i 0).val < 16384 := (i 0).isLt
  have hi1 : (i 1).val < 1000 := (i 1).isLt
  have ht : (i 0).val / 512 < cfg0.N := by omega
  obtain ⟨-, -, -, -, -, -, -, -, -, -, e0, e1⟩ := idx_facts ⟨(i 0).val / 512, ht⟩
  refine ⟨⟨(i 0).val / 512, ht⟩, flush0_5 _, ?_⟩
  rw [mem_blk]
  intro a
  match a with
  | ⟨0, _⟩ =>
    show win0_5.index ⟨(i 0).val / 512, ht⟩ (0 : Fin 2) * 512 ≤ (i 0).val
      ∧ (i 0).val < win0_5.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_5.index ⟨(i 0).val / 512, ht⟩ (1 : Fin 2) * 1000 ≤ (i 1).val
      ∧ (i 1).val < win0_5.index ⟨(i 0).val / 512, ht⟩ (1 : Fin 2) * 1000 + 1000
    rw [e1]
    omega

/-- THE ARRAY after the run is the specification. -/
theorem final (c : Dev nD) : (dats m 0 c).arrAt 5 cfg0.N = result m c :=
  (dats m 0 c).arrAt_eq_of_cover 5 (result m c) (fun t _ => flushed_eq m c t) (cover)

/-- THE KERNEL'S RUN, READ: every weakly fair execution terminates with the result array at the specification of the
    argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelValue

end
-- ==== Proof.RefSoftmax.lean ====
/-
  The reference's soft-max half, read index by index: its logits, each row's greatest logit, the shifted
  exponentials, their sum over the row and the mixture with the uniform draws are the row functions of the
  specification.  A row's maximum is taken by a reduction from minus infinity, then once more against minus
  infinity (which changes nothing); the row sums start from the zero word.
-/
import proofs.«170001_g53102975648383_cont_9to1c4b_338_2_alg».proof.Proof.Gen.ReferenceIdeal.Read
import proofs.«170001_g53102975648383_cont_9to1c4b_338_2_alg».proof.Proof.Spec
import Idealize.ShloMosaic.PureOps.Reduce
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx Cert.Spec

variable (x0 : (⟨S16384x64, .f32⟩ : BufTy).Contents (Elt Ideal)) (x1 : (⟨S16384x1000, .f32⟩ : BufTy).Contents (Elt Ideal))
  (x2 : (⟨S16384x1000, .i32⟩ : BufTy).Contents (Elt Ideal)) (x3 : (⟨S64x1000, .f32⟩ : BufTy).Contents (Elt Ideal))
  (x4 : (⟨S1000, .f32⟩ : BufTy).Contents (Elt Ideal))

/-- The left factor of term k of logit i is s at (row of i, k), -/
theorem lidx_eq (i : S16384x1000.Idx) (k : Fin 64) : lidx_main_v0 i k = ix2 (i 0) k :=
  funext fun a => Fin.ext (by match a with | ⟨0, _⟩ => rfl | ⟨1, _⟩ => rfl)
/-- the right factor W at (k, column of i), -/
theorem ridx_eq (i : S16384x1000.Idx) (k : Fin 64) : ridx_main_v0 i k = ix2 k (i 1) :=
  funext fun a => Fin.ext (by match a with | ⟨0, _⟩ => rfl | ⟨1, _⟩ => rfl)
/-- and the bias is read at the column of i. -/
theorem bidx_eq (i : S16384x1000.Idx) : idx_main_v1 (idx_main_v2 i) = ix1 (i 1) :=
  funext fun a => Fin.ext (by match a with | ⟨0, _⟩ => rfl)

/-- The reference's logits are the specification's. -/
theorem logits_eq (i : S16384x1000.Idx) : val_main_v3 (F := Ideal) x0 x3 x4 i = logit x0 x3 x4 (i 0) (i 1) := by
  rw [val_main_v3_apply, val_main_v0_apply, val_main_v2_apply, val_main_v1_apply, bidx_eq]
  simp only [lidx_eq, ridx_eq]
  rfl

/-- Reducing over the actions keeps the rows. -/
theorem redRows : S16384x1000.Reduces [1] S16384 := by decide

/-- Row j with action k put back is the index (j, k). -/
theorem lift_eq (j : S16384.Idx) (k : Fin 1000) : redRows.lift j k = ix2 (j 0) k :=
  funext fun a => Fin.ext (by match a with | ⟨0, _⟩ => rfl | ⟨1, _⟩ => rfl)

/-- The reference's row maximum — the reduction from minus infinity, then the maximum with minus infinity — is the
    specification's. -/
theorem rowmax_eq (j : S16384.Idx) : val_main_v6 (F := Ideal) x0 x3 x4 j = rowMax (logit x0 x3 x4 (j 0)) := by
  rw [val_main_v6_apply, val_main_v5_apply, val_main_cst_0_apply]
  unfold val_main_v4
  rw [Host.reduce_eq_fold_single FloatOps.maximumf _ _ _ redRows _ j]
  have hf : (val_main_v3 (F := Ideal) x0 x3 x4 ∘ redRows.lift j) = logit x0 x3 x4 (j 0) := by
    funext k
    exact (congrArg (val_main_v3 (F := Ideal) x0 x3 x4) (lift_eq j k)).trans (logits_eq x0 x3 x4 (ix2 (j 0) k))
  rw [hf]
  unfold rowMax
  exact max_fold_self _ _ _

/-- The reference's shifted exponentials are the specification's. -/
theorem exp_eq (i : S16384x1000.Idx) : val_main_v10 (F := Ideal) x0 x3 x4 i = rowExp (logit x0 x3 x4 (i 0)) (i 1) := by
  rw [val_main_v10_apply, val_main_v9_apply, val_main_v8_apply, val_main_v7_apply, rowmax_eq, logits_eq]
  rfl

/-- The reference's soft-max denominator is the sum of the row's exponentials. -/
theorem den_eq (j : S16384.Idx) : val_main_v11 (F := Ideal) x0 x3 x4 j = ∑ k : Fin 1000, rowExp (logit x0 x3 x4 (j 0)) k := by
  rw [val_main_v11_apply, val_main_cst_1_apply]
  show Ideal.ofBits .f32 0x00000000#32 + _ = _
  rw [Ideal.ofBits_zero_f32, zero_add]
  refine Finset.sum_congr rfl fun k _ => ?_
  rw [exp_eq]
  rfl

/-- The reference's mixture of the uniform draws and the soft-max weights is the specification's. -/
theorem mix_eq (i : S16384x1000.Idx) :
    val_main_v19 (F := Ideal) x0 x1 x3 x4 i = rowMix (logit x0 x3 x4 (i 0)) (fun a => x1 (ix2 (i 0) a)) (i 1) := by
  rw [val_main_v19_apply, val_main_v16_apply, val_main_v18_apply, val_main_v15_apply, val_main_cst_2_apply,
    val_main_v17_apply, val_main_cst_3_apply, val_main_v14_apply, val_main_v13_apply, val_main_v12_apply, den_eq, exp_eq]
  unfold rowMix
  rw [congrArg x1 (eq_ix2 i)]
  rfl

end Cert.RefValue

end
-- ==== Proof.LibScatterColumn.lean ====
import Idealize.ShloMosaic.PureOps
import Idealize.ShloMosaic.Lib.ValueIdx

/-!
# A scatter that overwrites one column

`stablehlo.scatter` whose body returns the update (a SET), applied to an `n × k` array, ONE scatter
index (a one-element index vector naming a column `c`) and a length-`n` vector of updates whose only
axis is a window axis going to the rows: the result is the operand with column `c` replaced by the
updates. Proved for symbolic `n` and `k`: the fold over the `n` update indices is never evaluated;
each step writes one cell, the cells of different steps are different, and a left fold of such
single-cell writes reads, at a cell, the one write that targets it or else the initial array.
-/

namespace Cert.Lib
open Idealize.ShloMosaic Idealize.ShloMosaic.ValueIdx

/-! ## A left fold of single-cell writes -/

/-- A fold of steps that each leave every cell but their target `tgt n` alone leaves a cell that is
    no step's target as it was. -/
theorem foldl_set_miss {I N α : Type} (tgt : N → I)
    (g : (I → α) → N → (I → α))
    (miss : ∀ r n i, i ≠ tgt n → g r n i = r i)
    (L : List N) (r0 : I → α) (i : I) (h : ∀ n ∈ L, i ≠ tgt n) :
    L.foldl g r0 i = r0 i := by
  induction L generalizing r0 with
  | nil => rfl
  | cons a L ih =>
    rw [List.foldl_cons, ih (g r0 a) (fun n hn => h n (List.mem_cons_of_mem _ hn))]
    exact miss r0 a i (h a (List.mem_cons_self ..))

/-- When the targets of different steps are different and no step occurs twice, the cell `tgt n0` of
    a step `n0` of the fold holds what that step wrote: the later steps do not touch it. -/
theorem foldl_set_hit {I N α : Type} (tgt : N → I) (v : N → α)
    (g : (I → α) → N → (I → α))
    (hit : ∀ r n, g r n (tgt n) = v n)
    (miss : ∀ r n i, i ≠ tgt n → g r n i = r i)
    (hinj : Function.Injective tgt)
    (L : List N) (hnd : L.Nodup) (r0 : I → α) (n0 : N) (hn0 : n0 ∈ L) :
    L.foldl g r0 (tgt n0) = v n0 := by
  induction L generalizing r0 with
  | nil => cases hn0
  | cons a L ih =>
    rw [List.foldl_cons]
    rw [List.nodup_cons] at hnd
    rcases List.mem_cons.1 hn0 with rfl | hmem
    · rw [foldl_set_miss tgt g miss L (g r0 n0) (tgt n0)
        (fun n hn e => hnd.1 (hinj e ▸ hn))]
      exact hit r0 n0
    · exact ih hnd.2 (g r0 a) hmem

/-- The two cases together, over a list that holds every step once: at a cell `i`, under a decided
    condition `P` that says "`i` is step `n0`'s target" and whose negation says "`i` is no step's target",
    the fold reads `n0`'s write if `P` and the initial value otherwise. -/
theorem foldl_set_ite {I N α : Type} (tgt : N → I) (v : N → α)
    (g : (I → α) → N → (I → α))
    (hit : ∀ r n, g r n (tgt n) = v n)
    (miss : ∀ r n i, i ≠ tgt n → g r n i = r i)
    (hinj : Function.Injective tgt)
    (L : List N) (hnd : L.Nodup) (hall : ∀ n, n ∈ L) (r0 : I → α) (i : I) (n0 : N)
    (P : Prop) [Decidable P] (hP : P → tgt n0 = i) (hnP : ¬P → ∀ n, i ≠ tgt n) :
    L.foldl g r0 i = if P then v n0 else r0 i := by
  by_cases h : P
  · rw [if_pos h, ← hP h]
    exact foldl_set_hit tgt v g hit miss hinj L hnd r0 n0 (hall n0)
  · rw [if_neg h]
    exact foldl_set_miss tgt g miss L r0 i (fun n _ => hnP h n)

/-! ## The dimension numbers of a one-column scatter, read at an update index -/

/-- An axis of a rank-2 shape is the first or the second. -/
theorem fin2_cases (a : Fin 2) : a = 0 ∨ a = 1 := by
  rcases a with ⟨_ | _ | m, hm⟩
  · left; rfl
  · right; rfl
  · omega

/-- The scatter indices hold one element: every index into them is the first. -/
theorem si_idx_eq (a : (⟨1, ![1]⟩ : Shape).Idx) : a = ix1 0 :=
  (eq_ix1 a).trans (congrArg ix1 (@Subsingleton.elim (Fin 1) _ (a 0) 0))

section Column
variable {n k : ℕ} (wf : ScatterDims.WF ⟨2, ![n, k]⟩ ⟨1, ![1]⟩ ⟨1, ![n]⟩ [0] [1] [1] 0)
  (j : (⟨1, ![n]⟩ : Shape).Idx) (idx : IVec ⟨1, ![1]⟩ 32)

/-- The row axis is not named by the scatter-dims-to-operand-dims map: its window starts at `0`. -/
theorem col_start_zero :
    (⟨[0], [1], [1], 0, wf⟩ : ScatterDims ⟨2, ![n, k]⟩ ⟨1, ![1]⟩ ⟨1, ![n]⟩).start j idx (0 : Fin 2) = 0 := by
  unfold ScatterDims.start
  split
  · rename_i ha
    have h01 : ¬ ((0 : Fin 2) = 1) := by decide
    exact absurd (List.mem_singleton.1 ha) h01
  · rfl

/-- The column axis is the map's one entry: its window starts at the one scatter index, read signed. -/
theorem col_start_one :
    (⟨[0], [1], [1], 0, wf⟩ : ScatterDims ⟨2, ![n, k]⟩ ⟨1, ![1]⟩ ⟨1, ![n]⟩).start j idx (1 : Fin 2)
      = (idx (ix1 0)).toInt := by
  unfold ScatterDims.start
  split
  · rw [si_idx_eq (ScatterDims.siIdx _ j _)]
  · rename_i ha
    exact absurd (List.mem_singleton.2 rfl) ha

/-- The row axis is the operand's one axis that is not inserted: its window coordinate is the update
    index's coordinate on the one window axis. -/
theorem col_window_zero :
    (⟨[0], [1], [1], 0, wf⟩ : ScatterDims ⟨2, ![n, k]⟩ ⟨1, ![1]⟩ ⟨1, ![n]⟩).window j (0 : Fin 2)
      = (j (0 : Fin 1)).val := by
  unfold ScatterDims.window
  split
  · exact congrArg (fun a => (j a).val) (List.getElem_singleton _)
  · rename_i ha
    exact absurd (List.mem_filter.2 ⟨List.mem_finRange _, by simp⟩) ha

/-- The column axis is inserted: its window coordinate is `0`. -/
theorem col_window_one :
    (⟨[0], [1], [1], 0, wf⟩ : ScatterDims ⟨2, ![n, k]⟩ ⟨1, ![1]⟩ ⟨1, ![n]⟩).window j (1 : Fin 2) = 0 := by
  unfold ScatterDims.window
  split
  · rename_i ha
    have := (List.mem_filter.1 ha).2
    simp at this
  · rfl

/-- Update index `a` lands at row `a` of the column `c` the scatter index names (both coordinates are
    inside the operand, so the update is not dropped). -/
theorem col_resultIdx (c : Fin k) (hc : (idx (ix1 0)).toInt = (c.val : ℤ)) (a : Fin n) :
    (⟨[0], [1], [1], 0, wf⟩ : ScatterDims ⟨2, ![n, k]⟩ ⟨1, ![1]⟩ ⟨1, ![n]⟩).resultIdx? (ix1 a) idx
      = some (ix2 a c) := by
  have hw0 : (⟨[0], [1], [1], 0, wf⟩ : ScatterDims ⟨2, ![n, k]⟩ ⟨1, ![1]⟩ ⟨1, ![n]⟩).window (ix1 a) (0 : Fin 2)
      = a.val := col_window_zero wf (ix1 a)
  have hall : ∀ a' : Fin 2,
      0 ≤ (⟨[0], [1], [1], 0, wf⟩ : ScatterDims ⟨2, ![n, k]⟩ ⟨1, ![1]⟩ ⟨1, ![n]⟩).start (ix1 a) idx a'
          + ((⟨[0], [1], [1], 0, wf⟩ : ScatterDims ⟨2, ![n, k]⟩ ⟨1, ![1]⟩ ⟨1, ![n]⟩).window (ix1 a) a' : ℕ) ∧
      (⟨[0], [1], [1], 0, wf⟩ : ScatterDims ⟨2, ![n, k]⟩ ⟨1, ![1]⟩ ⟨1, ![n]⟩).start (ix1 a) idx a'
          + ((⟨[0], [1], [1], 0, wf⟩ : ScatterDims ⟨2, ![n, k]⟩ ⟨1, ![1]⟩ ⟨1, ![n]⟩).window (ix1 a) a' : ℕ)
        < ((⟨2, ![n, k]⟩ : Shape).size a' : ℕ) := by
    intro a'
    rcases fin2_cases a' with rfl | rfl
    · rw [col_start_zero, hw0]
      have := a.isLt
      show (0 : ℤ) ≤ 0 + (a.val : ℤ) ∧ 0 + (a.val : ℤ) < (n : ℤ)
      omega
    · rw [col_start_one, col_window_one, hc]
      have := c.isLt
      show (0 : ℤ) ≤ (c.val : ℤ) + ((0 : ℕ) : ℤ) ∧ (c.val : ℤ) + ((0 : ℕ) : ℤ) < (k : ℤ)
      omega
  unfold ScatterDims.resultIdx?
  rw [dif_pos hall]
  congr 1
  funext a'
  rcases fin2_cases a' with rfl | rfl
  · apply Fin.ext
    show ((⟨[0], [1], [1], 0, wf⟩ : ScatterDims ⟨2, ![n, k]⟩ ⟨1, ![1]⟩ ⟨1, ![n]⟩).start (ix1 a) idx (0 : Fin 2)
          + ((⟨[0], [1], [1], 0, wf⟩ : ScatterDims ⟨2, ![n, k]⟩ ⟨1, ![1]⟩ ⟨1, ![n]⟩).window (ix1 a) (0 : Fin 2) : ℕ)).toNat
        = a.val
    rw [col_start_zero, hw0]
    omega
  · apply Fin.ext
    show ((⟨[0], [1], [1], 0, wf⟩ : ScatterDims ⟨2, ![n, k]⟩ ⟨1, ![1]⟩ ⟨1, ![n]⟩).start (ix1 a) idx (1 : Fin 2)
          + ((⟨[0], [1], [1], 0, wf⟩ : ScatterDims ⟨2, ![n, k]⟩ ⟨1, ![1]⟩ ⟨1, ![n]⟩).window (ix1 a) (1 : Fin 2) : ℕ)).toNat
        = c.val
    rw [col_start_one, col_window_one, hc]
    omega

end Column

/-! ## The scatter at an index -/

/-- A SET scatter of a length-`n` vector into column `c` of an `n × k` array (one scatter index holding
    `c`; the updates' axis a window axis to the rows, the column axis inserted): the result reads the
    update's row-`r` element in column `c` and the operand everywhere else. -/
theorem scatter_set_column_apply {α : Type} {n k : ℕ}
    (d : ScatterDims ⟨2, ![n, k]⟩ ⟨1, ![1]⟩ ⟨1, ![n]⟩)
    (huw : d.updateWindowDims = [0]) (hiw : d.insertedWindowDims = [1])
    (hsd : d.scatterDimsToOperandDims = [1]) (hiv : d.indexVectorDim = 0)
    (x : (⟨2, ![n, k]⟩ : Shape).Idx → α) (idx : IVec ⟨1, ![1]⟩ 32) (upd : (⟨1, ![n]⟩ : Shape).Idx → α)
    (c : Fin k) (hc : (idx (ix1 0)).toInt = (c.val : ℤ)) (r : Fin n) (q : Fin k) :
    Host.scatter d (fun _ b => b) x idx upd (ix2 r q) = if q = c then upd (ix1 r) else x (ix2 r q) := by
  obtain ⟨uw, iw, sd, iv, wf⟩ := d
  dsimp only at huw hiw hsd hiv
  subst huw hiw hsd hiv
  -- the cell update index `m` (in row-major order) writes: its one coordinate's row, column `c`
  let tgt : Fin (⟨1, ![n]⟩ : Shape).numel → (⟨2, ![n, k]⟩ : Shape).Idx :=
    fun m => ix2 (((⟨1, ![n]⟩ : Shape).rowMajor.symm m) (0 : Fin 1)) c
  have hres : ∀ m, (⟨[0], [1], [1], 0, wf⟩ : ScatterDims ⟨2, ![n, k]⟩ ⟨1, ![1]⟩ ⟨1, ![n]⟩).resultIdx?
      ((⟨1, ![n]⟩ : Shape).rowMajor.symm m) idx = some (tgt m) := by
    intro m
    have h := col_resultIdx wf idx c hc (((⟨1, ![n]⟩ : Shape).rowMajor.symm m) (0 : Fin 1))
    have e : (⟨1, ![n]⟩ : Shape).rowMajor.symm m = ix1 (((⟨1, ![n]⟩ : Shape).rowMajor.symm m) (0 : Fin 1)) := eq_ix1 _
    rw [e]
    exact h
  -- different update indices write different cells: they differ in their one coordinate
  have hinj : Function.Injective tgt := by
    intro m1 m2 e
    have h0 : ((⟨1, ![n]⟩ : Shape).rowMajor.symm m1) (0 : Fin 1) = ((⟨1, ![n]⟩ : Shape).rowMajor.symm m2) (0 : Fin 1) :=
      congrFun e (0 : Fin 2)
    exact (⟨1, ![n]⟩ : Shape).rowMajor.symm.injective
      ((eq_ix1 _).trans ((congrArg ix1 h0).trans (eq_ix1 _).symm))
  unfold Host.scatter
  refine (foldl_set_ite tgt (fun m => upd ((⟨1, ![n]⟩ : Shape).rowMajor.symm m)) _ ?_ ?_ hinj _
    (List.nodup_finRange _) (List.mem_finRange) x (ix2 r q) ((⟨1, ![n]⟩ : Shape).rowMajor (ix1 r)) (q = c) ?_ ?_).trans ?_
  · intro r' m
    dsimp only
    rw [hres m]
    exact if_pos rfl
  · intro r' m i hne
    dsimp only
    rw [hres m]
    exact if_neg hne
  · intro hq
    show ix2 (((⟨1, ![n]⟩ : Shape).rowMajor.symm ((⟨1, ![n]⟩ : Shape).rowMajor (ix1 r))) (0 : Fin 1)) c = ix2 r q
    rw [Equiv.symm_apply_apply, hq]
    rfl
  · intro hq m e
    exact hq (congrFun e (1 : Fin 2))
  · rw [Equiv.symm_apply_apply]

end Cert.Lib
-- ==== Proof.RefValue.lean ====
/-
  The reference's masking half, read index by index.  The mask, read as signed numbers, has its last column
  (action 999) overwritten by the word for one; the mixture is multiplied by that factor; each row of the
  products is summed from the zero word; and every product is divided by its row's sum.  On a mask whose words
  are 0 or 1 the product is the specification's selection "the mixture where the action is kept, zero
  elsewhere", so the quotient is the specification's row function on every row.
-/
import proofs.«170001_g53102975648383_cont_9to1c4b_338_2_alg».proof.Proof.Gen.ReferenceIdeal.Read
import proofs.«170001_g53102975648383_cont_9to1c4b_338_2_alg».proof.Proof.Spec
import proofs.«170001_g53102975648383_cont_9to1c4b_338_2_alg».proof.Proof.RefSoftmax
import proofs.«170001_g53102975648383_cont_9to1c4b_338_2_alg».proof.Proof.LibScatterColumn
import Idealize.ShloMosaic.PureOps.Reduce
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx Cert.Spec

variable (x0 : (⟨S16384x64, .f32⟩ : BufTy).Contents (Elt Ideal)) (x1 : (⟨S16384x1000, .f32⟩ : BufTy).Contents (Elt Ideal))
  (x2 : (⟨S16384x1000, .i32⟩ : BufTy).Contents (Elt Ideal)) (x3 : (⟨S64x1000, .f32⟩ : BufTy).Contents (Elt Ideal))
  (x4 : (⟨S1000, .f32⟩ : BufTy).Contents (Elt Ideal))

/-- The factor the mixture is multiplied by: the mask word read as a signed number, except in the last column
    (action 999), which the scatter overwrites with the word for one. The scatter has one index, the word 999,
    which read signed is the column 999; its updates are all the word for one. -/
theorem factor_eq (i : S16384x1000.Idx) :
    val_main_v23 (F := Ideal) x2 i
      = if (i 1).val = 999 then Ideal.ofBits .f32 0x3F800000#32 else (((x2 i).toInt : ℝ) : EReal) := by
  obtain ⟨r, q, rfl⟩ : ∃ (r : Fin 16384) (q : Fin 1000), i = ix2 r q := ⟨i 0, i 1, eq_ix2 i⟩
  unfold val_main_v23
  have hc : ((val_main_v21 (F := Ideal)) (ix1 0)).toInt = (((⟨999, by decide⟩ : Fin 1000).val : ℕ) : ℤ) :=
    (congrArg BitVec.toInt ((val_main_v21_apply (F := Ideal) (ix1 0)).trans (val_main_c_apply (F := Ideal) _))).trans
      (by decide)
  refine (Cert.Lib.scatter_set_column_apply scatter_S16384x1000_S1_S16384_0_1_1_0 rfl rfl rfl rfl
    (val_main_v20 (F := Ideal) x2) (val_main_v21 (F := Ideal)) (val_main_v22 (F := Ideal))
    ⟨999, by decide⟩ hc r q).trans ?_
  by_cases hq : q.val = 999
  · have hq' : q = ⟨999, by decide⟩ := Fin.ext hq
    refine (if_pos hq').trans (Eq.trans ?_ (if_pos hq).symm)
    exact (val_main_v22_apply (F := Ideal) (ix1 r)).trans (val_main_cst_4_apply (F := Ideal) _)
  · have hq' : ¬ q = ⟨999, by decide⟩ := fun h => hq (congrArg Fin.val h)
    refine (if_neg hq').trans (Eq.trans ?_ (if_neg hq).symm)
    exact val_main_v20_apply (F := Ideal) x2 (ix2 r q)

/-- On a mask of words 0 and 1 the reference's product of that factor and the mixture is the specification's kept
    value: the mixture where the mask word is not zero or the action is the last, zero elsewhere. -/
theorem kept_eq (hmask : ∀ i, x2 i = 0#32 ∨ x2 i = 1#32) (i : S16384x1000.Idx) :
    val_main_v24 (F := Ideal) x0 x1 x2 x3 x4 i
      = rowKept (logit x0 x3 x4 (i 0)) (fun a => x1 (ix2 (i 0) a)) (fun a => x2 (ix2 (i 0) a)) (i 1) := by
  obtain ⟨r, q, rfl⟩ : ∃ (r : Fin 16384) (q : Fin 1000), i = ix2 r q := ⟨i 0, i 1, eq_ix2 i⟩
  rw [val_main_v24_apply, factor_eq, mix_eq]
  unfold rowKept
  exact mask_mul_eq_select (x2 (ix2 r q)) (hmask _) q _

/-- The reference's row total — the sum of the row's products from the zero word — is the sum of the row's kept
    values. -/
theorem tot_eq (hmask : ∀ i, x2 i = 0#32 ∨ x2 i = 1#32) (j : S16384.Idx) :
    val_main_v25 (F := Ideal) x0 x1 x2 x3 x4 j
      = ∑ k : Fin 1000, rowKept (logit x0 x3 x4 (j 0)) (fun a => x1 (ix2 (j 0) a)) (fun a => x2 (ix2 (j 0) a)) k := by
  rw [val_main_v25_apply, val_main_cst_5_apply]
  show Ideal.ofBits .f32 0x00000000#32 + _ = _
  rw [Ideal.ofBits_zero_f32, zero_add]
  refine Finset.sum_congr rfl fun k _ => ?_
  rw [kept_eq x0 x1 x2 x3 x4 hmask]
  rfl

/-- The reference's result — each kept value divided by its row's total — is the specification's policy. -/
theorem ref_policy (hmask : ∀ i, x2 i = 0#32 ∨ x2 i = 1#32) :
    val_main_v28 (F := Ideal) x0 x1 x2 x3 x4 = policy x0 x1 x2 x3 x4 := by
  funext i
  rw [val_main_v28_apply, val_main_v27_apply, val_main_v26_apply, tot_eq x0 x1 x2 x3 x4 hmask,
    kept_eq x0 x1 x2 x3 x4 hmask]
  unfold policy rowOut
  rfl

end Cert.RefValue

end
-- ==== Proof.MaskDomain.lean ====
/-
  The mask's domain, read back from the stated precondition.

  The precondition of the claim is a conjunction of one-bit facts, the last of which is
  "every element of the integer mask is 0 or 1": the elementwise or of the two comparisons
  `mask == 0` and `mask == 1`, reduced by `and` over both axes from the constant 1. From the
  whole conjunction being 1 we recover, at any one index, that the mask's word there is 0 or 1.
  Nothing is evaluated over the array: the reduction is read back by the general fact that an
  `and`-fold that came out 1 met only 1s.
-/
import proofs.«170001_g53102975648383_cont_9to1c4b_338_2_alg».proof.Pre_finite_inputs
import Idealize.ShloMosaic.Lib.ReduceAll
import Idealize.ShloMosaic.Lib.ValueIdx

namespace Cert.MaskDomain
open Idealize.ShloMosaic

/-- If the precondition holds (its one bit is 1) then every word of the mask is 0 or 1.

    The precondition is `c ∧ all (mask == 0 ∨ mask == 1)` as one-bit words. A one-bit `and` is 1 only
    when both operands are, so the second conjunct is 1; an `and`-reduction over all axes that is 1 had
    a 1 at every index; and at the index `i` that 1 is the or of the two equality tests of `mask i`
    against the constants 0 and 1, one of which must therefore hold. -/
theorem mask_zero_or_one [Cert.Pre_finite_inputs.Facts] {F : FTy → Type} [FloatOps F]
    (a0 : FVec F Cert.Pre_finite_inputs.S16384x64 .f32) (a1 : FVec F Cert.Pre_finite_inputs.S16384x1000 .f32)
    (a2 : IVec Cert.Pre_finite_inputs.S16384x1000 32) (a3 : FVec F Cert.Pre_finite_inputs.S64x1000 .f32)
    (a4 : FVec F Cert.Pre_finite_inputs.S1000 .f32)
    (h : Cert.Pre_finite_inputs.fn (F := F) a0 a1 a2 a3 a4 = fun _ => 1#1)
    (i : Cert.Pre_finite_inputs.S16384x1000.Idx) : a2 i = 0#32 ∨ a2 i = 1#32 := by
  -- the scalar shape has a single index (there is no axis to choose a coordinate on)
  haveI : Subsingleton Cert.Pre_finite_inputs.S_.Idx := ⟨fun a b => funext fun d => d.elim0⟩
  -- the precondition's one bit, with the chain of operations in view
  have h0 := congrFun h ValueIdx.ix0
  dsimp only [Cert.Pre_finite_inputs.fn, Cert.Pre_finite_inputs.fn_part1] at h0
  -- the outermost `and`: its second operand is the mask conjunct
  obtain ⟨-, hm⟩ := IntOp.andi_eq_one.1 h0
  -- an `and`-reduction over all axes that is 1 is 1 at every index
  have hi := Host.reduce_andi_all _ _ _ _ _ hm i
  -- at `i` the reduced array is the or of the two equality tests (the broadcast constants read 0 and 1)
  have hi' : IntOp.ori (IntOp.cmpi .eq (a2 i) 0#32) (IntOp.cmpi .eq (a2 i) 1#32) = 1#1 := hi
  rcases IntOp.ori_eq_one.1 hi' with h1 | h1
  · exact Or.inl (IntOp.cmpi_eq.1 h1)
  · exact Or.inr (IntOp.cmpi_eq.1 h1)

end Cert.MaskDomain
-- ==== Proof.lean ====
/-
  The kernel computes, for each of 16384 states, a policy over 1000 actions: the soft-max of the logits s · W + b,
  mixed with uniform draws (0.1 · unif + 0.9 · soft-max), restricted to the valid actions — those whose mask word is
  not zero, the last action always — and divided by the row's sum.  It does so block by block, 512 rows at a grid
  point.  The reference computes the same on the whole arrays, with the restriction written as a product by the mask
  read as a number (the last column of the factor set to one).

  At the ideal values both are one function of the argument arrays (Proof/Spec.lean, policy):
  • the kernel's blocks are rows of the arrays and a row's value depends on that row only, so the 32 blocks written
    back tile the specification (Proof/KernelRow.lean: the body at an element; Proof/KernelValue.lean: blocks to array);
  • the reference's operations read index by index are the same row functions (Proof/RefSoftmax.lean,
    Proof/RefValue.lean; the column overwrite by Proof/LibScatterColumn.lean), where the product by the mask is the
    selection because every mask word is 0 or 1 — the claim's precondition says so, and Proof/MaskDomain.lean reads
    it back; on the extended reals 0 · p = 0 and 1 · p = p hold for every p, so no finiteness is used.
  Sums and maxima are taken over the same row in both programs; no reordering law is needed beyond the library's
  reading of a reduction as a sum or a fold over the row.  The idealization rewrote nothing, so its claim is trivial.
-/
import proofs.«170001_g53102975648383_cont_9to1c4b_338_2_alg».proof.Defs
import proofs.«170001_g53102975648383_cont_9to1c4b_338_2_alg».proof.Proof.Gen.Kernel
import proofs.«170001_g53102975648383_cont_9to1c4b_338_2_alg».proof.Proof.Gen.Kernel.Skeleton
import proofs.«170001_g53102975648383_cont_9to1c4b_338_2_alg».proof.Proof.Gen.Kernel.Launch
import proofs.«170001_g53102975648383_cont_9to1c4b_338_2_alg».proof.Proof.Gen.Kernel.Points
import proofs.«170001_g53102975648383_cont_9to1c4b_338_2_alg».proof.Proof.Gen.Kernel.Frame
import proofs.«170001_g53102975648383_cont_9to1c4b_338_2_alg».proof.Proof.Gen.KernelIdeal
import proofs.«170001_g53102975648383_cont_9to1c4b_338_2_alg».proof.Proof.Gen.KernelIdeal.Skeleton
import proofs.«170001_g53102975648383_cont_9to1c4b_338_2_alg».proof.Proof.Gen.KernelIdeal.Launch
import proofs.«170001_g53102975648383_cont_9to1c4b_338_2_alg».proof.Proof.Gen.KernelIdeal.Points
import proofs.«170001_g53102975648383_cont_9to1c4b_338_2_alg».proof.Proof.Gen.KernelIdeal.Frame
import proofs.«170001_g53102975648383_cont_9to1c4b_338_2_alg».proof.Proof.Gen.ReferenceIdeal
import proofs.«170001_g53102975648383_cont_9to1c4b_338_2_alg».proof.Proof.Gen.Pre_finite_inputs
import proofs.«170001_g53102975648383_cont_9to1c4b_338_2_alg».proof.Proof.Gen.KernelIdeal.Value
import proofs.«170001_g53102975648383_cont_9to1c4b_338_2_alg».proof.Proof.Gen.ReferenceIdeal.Run
import proofs.«170001_g53102975648383_cont_9to1c4b_338_2_alg».proof.Proof.Gen.ReferenceIdeal.Read
import proofs.«170001_g53102975648383_cont_9to1c4b_338_2_alg».proof.Proof.KernelValue
import proofs.«170001_g53102975648383_cont_9to1c4b_338_2_alg».proof.Proof.RefValue
import proofs.«170001_g53102975648383_cont_9to1c4b_338_2_alg».proof.Proof.MaskDomain
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, of which the precondition holds, both programs end with the
    specification of the arguments in their result arrays: the kernel's blocks tile it, the reference's operations
    compute it where every mask word is 0 or 1. -/
theorem algebraic : Cert.algebraic_KernelIdeal_ReferenceIdeal := by
  intro m ρ m' ρ' hpre hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  have hm : ∀ i, (m' ((c.tc : Thread Cert.ReferenceIdeal.nD Cert.ReferenceIdeal.τ).loc Cert.ReferenceIdeal.main_arg2)) i = 0#32
      ∨ (m' ((c.tc : Thread Cert.ReferenceIdeal.nD Cert.ReferenceIdeal.τ).loc Cert.ReferenceIdeal.main_arg2)) i = 1#32 := by
    intro i
    rw [(hagree c).2.2.1]
    exact Cert.MaskDomain.mask_zero_or_one _ _ _ _ _ (hpre c) i
  rw [Cert.ReferenceIdeal.Read.val_main_v28_eq m' c, Cert.RefValue.ref_policy _ _ _ _ _ hm,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
